-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x32 : Shape := ⟨2, ![16384, 32]⟩
abbrev S32x32 : Shape := ⟨2, ![32, 32]⟩
abbrev S32 : Shape := ⟨1, ![32]⟩
abbrev S96x32 : Shape := ⟨2, ![96, 32]⟩
abbrev S96 : Shape := ⟨1, ![96]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S96x32 : S_.BroadcastsInDim S96x32 (![] : Fin 0 → Fin S96x32.rank)
  reducesTo_S96x32_S_d0_1 : S96x32.ReducesTo [0, 1] S_
  bcast_S_S96 : S_.BroadcastsInDim S96 (![] : Fin 0 → Fin S96.rank)
  reducesTo_S96_S_d0 : S96.ReducesTo [0] S_

variable [Facts]

def fn_part2 {F : FTy → Type} [FloatOps F] (main_arg7 : FVec F S96 .f32) (main_v33 : IVec S_ 1) : IVec S_ 1 :=
  let main_v34 : FVec F S96 .f32 := Host.absf main_arg7
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  main_v38

def fn_part1 {F : FTy → Type} [FloatOps F] (main_arg4 : FVec F S96x32 .f32) (main_arg5 : FVec F S96x32 .f32) (main_arg6 : FVec F S96 .f32) (main_arg7 : FVec F S96 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S96x32 .f32 := Host.absf main_arg4
  let main_cst_6 : FVec F S_ .f32 := constant S_ .f32 0x7F800000#32
  let main_v20 : FVec F S96x32 .f32 := broadcastInDim S96x32 ![] bcast_S_S96x32 main_cst_6
  let main_v21 : IVec S96x32 1 := cmpf .olt main_v19 main_v20
  let main_c_7 : IVec S_ 1 := constantI S_ 1 1#1
  let main_v22 : IVec S_ 1 := (fun x v => Host.reduce IntOp.andi x v reducesTo_S96x32_S_d0_1 h_S_) main_v21 main_c_7
  let main_v23 : IVec S_ 1 := andi main_v18 main_v22
  let main_v24 : FVec F S96x32 .f32 := Host.absf main_arg5
  let main_cst_8 : FVec F S_ .f32 := constant S_ .f32 0x7F800000#32
  let main_v25 : FVec F S96x32 .f32 := broadcastInDim S96x32 ![] bcast_S_S96x32 main_cst_8
  let main_v26 : IVec S96x32 1 := cmpf .olt main_v24 main_v25
  let main_c_9 : IVec S_ 1 := constantI S_ 1 1#1
  let main_v27 : IVec S_ 1 := (fun x v => Host.reduce IntOp.andi x v reducesTo_S96x32_S_d0_1 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg7 main_v33

def fn {F : FTy → Type} [FloatOps F] (main_arg0 : FVec F S16384x16384 .f32) (main_arg1 : FVec F S16384x32 .f32) (main_arg2 : FVec F S32x32 .f32) (main_arg3 : FVec F S32 .f32) (main_arg4 : FVec F S96x32 .f32) (main_arg5 : FVec F S96x32 .f32) (main_arg6 : FVec F S96 .f32) (main_arg7 : FVec F S96 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S16384x16384 : Shape := ⟨2, ![16384, 16384]⟩
abbrev S16384x32 : Shape := ⟨2, ![16384, 32]⟩
abbrev S32x32 : Shape := ⟨2, ![32, 32]⟩
abbrev S32 : Shape := ⟨1, ![32]⟩
abbrev S96x32 : Shape := ⟨2, ![96, 32]⟩
abbrev S96 : Shape := ⟨1, ![96]⟩
abbrev S32x96 : Shape := ⟨2, ![32, 96]⟩
abbrev S1x32 : Shape := ⟨2, ![1, 32]⟩
abbrev S1x96 : Shape := ⟨2, ![1, 96]⟩
abbrev S16384x96 : Shape := ⟨2, ![16384, 96]⟩
abbrev S128x16384 : Shape := ⟨2, ![128, 16384]⟩
abbrev S128x96 : Shape := ⟨2, ![128, 96]⟩
abbrev S128x32 : Shape := ⟨2, ![128, 32]⟩

abbrev nBuf : Space → Nat
  | .hbm => 24
  | .vmem => 10
  | .smem => 0
  | _ => 0

abbrev bufTy : (tb : Table) → Fin (tcTables nBuf tb) → BufTy
  | .hbm, ⟨0, _⟩ => ⟨S16384x16384, .f32⟩
  | .hbm, ⟨1, _⟩ => ⟨S16384x32, .f32⟩
  | .hbm, ⟨2, _⟩ => ⟨S32x32, .f32⟩
  | .hbm, ⟨3, _⟩ => ⟨S32, .f32⟩
  | .hbm, ⟨4, _⟩ => ⟨S96x32, .f32⟩
  | .hbm, ⟨5, _⟩ => ⟨S96x32, .f32⟩
  | .hbm, ⟨6, _⟩ => ⟨S96, .f32⟩
  | .hbm, ⟨7, _⟩ => ⟨S96, .f32⟩
  | .hbm, ⟨8, _⟩ => ⟨S32x32, .f32⟩
  | .hbm, ⟨9, _⟩ => ⟨S32x96, .f32⟩
  | .hbm, ⟨10, _⟩ => ⟨S32x96, .f32⟩
  | .hbm, ⟨11, _⟩ => ⟨S1x32, .f32⟩
  | .hbm, ⟨12, _⟩ => ⟨S32x96, .f32⟩
  | .hbm, ⟨13, _⟩ => ⟨S1x96, .f32⟩
  | .hbm, ⟨14, _⟩ => ⟨S1x96, .f32⟩
  | .hbm, ⟨15, _⟩ => ⟨S1x96, .f32⟩
  | .hbm, ⟨16, _⟩ => ⟨S16384x96, .f32⟩
  | .hbm, ⟨17, _⟩ => ⟨S16384x96, .bf16⟩
  | .hbm, ⟨18, _⟩ => ⟨S32x96, .f32⟩
  | .hbm, ⟨19, _⟩ => ⟨S16384x96, .f32⟩
  | .hbm, ⟨20, _⟩ => ⟨S1x96, .f32⟩
  | .hbm, ⟨21, _⟩ => ⟨S16384x96, .f32⟩
  | .hbm, ⟨22, _⟩ => ⟨S16384x96, .f32⟩
  | .hbm, ⟨23, _⟩ => ⟨S16384x32, .f32⟩
  | .local _ .vmem, ⟨0, _⟩ => ⟨S128x16384, .f32⟩
  | .local _ .vmem, ⟨1, _⟩ => ⟨S128x16384, .f32⟩
  | .local _ .vmem, ⟨2, _⟩ => ⟨S16384x96, .bf16⟩
  | .local _ .vmem, ⟨3, _⟩ => ⟨S1x96, .f32⟩
  | .local _ .vmem, ⟨4, _⟩ => ⟨S128x96, .f32⟩
  | .local _ .vmem, ⟨5, _⟩ => ⟨S128x96, .f32⟩
  | .local _ .vmem, ⟨6, _⟩ => ⟨S128x32, .f32⟩
  | .local _ .vmem, ⟨7, _⟩ => ⟨S128x32, .f32⟩
  | .local _ .vmem, ⟨8, _⟩ => ⟨S128x32, .f32⟩
  | .local _ .vmem, ⟨9, _⟩ => ⟨S128x32, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x32_S32x32_1_0 : S32x32.Transposes [1, 0] S32x32
  transposes_S96x32_S32x96_1_0 : S96x32.Transposes [1, 0] S32x96
  shapeCasts_S32_S1x32 : S32.ShapeCasts S1x32
  shapeCasts_S96_S1x96 : S96.ShapeCasts S1x96
  bitsLt_bf16_f32 : FTy.bits .bf16 < FTy.bits .f32
  bcast_S1x96_S16384x96_0_1 : S1x96.BroadcastsInDim S16384x96 (![0, 1] : Fin 2 → Fin S16384x96.rank)
  inb_S128x16384_S128x16384_0_0 : ∀ a, (![0, 0] : Fin 2 → Nat) a + S128x16384.size a ≤ S128x16384.size a
  h_S128x16384 : 0 < S128x16384.numel
  inb_S16384x96_S16384x96_0_0 : ∀ a, (![0, 0] : Fin 2 → Nat) a + S16384x96.size a ≤ S16384x96.size a
  h_S16384x96 : 0 < S16384x96.numel
  shapeCasts_S16384x96_S16384x96 : S16384x96.ShapeCasts S16384x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S128x96 : S1x96.Broadcasts S128x96
  inb_S128x96_S128x96_0_0 : ∀ a, (![0, 0] : Fin 2 → Nat) a + S128x96.size a ≤ S128x96.size a
  h_S128x96 : 0 < S128x96.numel
  shapeCasts_S128x96_S128x96 : S128x96.ShapeCasts S128x96
  inb_S128x32_S128x32_0_0 : ∀ a, (![0, 0] : Fin 2 → Nat) a + S128x32.size a ≤ S128x32.size a
  h_S128x32 : 0 < S128x32.numel
  slices_S128x96_o0_0_S128x32 : S128x96.Slices ![0, 0] S128x32
  slices_S128x96_o0_32_S128x32 : S128x96.Slices ![0, 32] S128x32
  slices_S128x96_o0_64_S128x32 : S128x96.Slices ![0, 64] S128x32
  dot_S32x32_S32x96_S32x96_1_0_0_1_n_n_wf : DotDims.WF S32x32 S32x96 S32x96 [1] [0] [0] [1] [] []
  dot_S1x32_S32x96_S1x96_1_0_0_1_n_n_wf : DotDims.WF S1x32 S32x96 S1x96 [1] [0] [0] [1] [] []
  dot_S16384x32_S32x96_S16384x96_1_0_0_1_n_n_wf : DotDims.WF S16384x32 S32x96 S16384x96 [1] [0] [0] [1] [] []
  dot_S128x16384_S16384x96_S128x96_1_0_0_1_n_n_wf : DotDims.WF S128x16384 S16384x96 S128x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x96.size a ≤ S16384x96.size a
  hwx0_1 : ∀ i : grid0.Coords, EltTy.bits .bf16 = 32 ∨ (Rect.block (s := S16384x96) S16384x96.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x96.size a ≤ S16384x96.size a
  hwx0_3 : ∀ i : grid0.Coords, EltTy.bits .f32 = 32 ∨ (Rect.block (s := S16384x96) S128x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S16384x32.size a
  hwx0_4 : ∀ i : grid0.Coords, EltTy.bits .f32 = 32 ∨ (Rect.block (s := S16384x32) S128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S16384x32.size a
  hwx0_5 : ∀ i : grid0.Coords, EltTy.bits .f32 = 32 ∨ (Rect.block (s := S16384x32) S128x32.size (cc0_transform_5 i) (hinb0_5 i)).WholeWords (EltTy.packing .f32)

variable [Facts₀]

def dot_S32x32_S32x96_S32x96_1_0_0_1_n_n : DotDims S32x32 S32x96 S32x96 where
  lhsContracting := [1]
  rhsContracting := [0]
  lhsNonContracting := [0]
  rhsNonContracting := [1]
  lhsBatch := []
  rhsBatch := []
  wf := dot_S32x32_S32x96_S32x96_1_0_0_1_n_n_wf
def dot_S1x32_S32x96_S1x96_1_0_0_1_n_n : DotDims S1x32 S32x96 S1x96 where
  lhsContracting := [1]
  rhsContracting := [0]
  lhsNonContracting := [0]
  rhsNonContracting := [1]
  lhsBatch := []
  rhsBatch := []
  wf := dot_S1x32_S32x96_S1x96_1_0_0_1_n_n_wf
def dot_S16384x32_S32x96_S16384x96_1_0_0_1_n_n : DotDims S16384x32 S32x96 S16384x96 where
  lhsContracting := [1]
  rhsContracting := [0]
  lhsNonContracting := [0]
  rhsNonContracting := [1]
  lhsBatch := []
  rhsBatch := []
  wf := dot_S16384x32_S32x96_S16384x96_1_0_0_1_n_n_wf
def dot_S128x16384_S16384x96_S128x96_1_0_0_1_n_n : DotDims S128x16384 S16384x96 S128x96 where
  lhsContracting := [1]
  rhsContracting := [0]
  lhsNonContracting := [0]
  rhsNonContracting := [1]
  lhsBatch := []
  rhsBatch := []
  wf := dot_S128x16384_S16384x96_S128x96_1_0_0_1_n_n_wf

abbrev win0_0 : Pipeline.Window sig grid0 :=
  Pipeline.Window.ofSpec (Memref.whole main_arg0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S16384x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S128x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x16384 : Shape := ⟨2, ![16384, 16384]⟩
abbrev S16384x32 : Shape := ⟨2, ![16384, 32]⟩
abbrev S32x32 : Shape := ⟨2, ![32, 32]⟩
abbrev S32 : Shape := ⟨1, ![32]⟩
abbrev S96x32 : Shape := ⟨2, ![96, 32]⟩
abbrev S96 : Shape := ⟨1, ![96]⟩
abbrev S1x32 : Shape := ⟨2, ![1, 32]⟩
abbrev S32x96 : Shape := ⟨2, ![32, 96]⟩
abbrev S16384x96 : Shape := ⟨2, ![16384, 96]⟩
abbrev S1x96 : Shape := ⟨2, ![1, 96]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x32, .f32⟩
  | .hbm, ⟨2, _⟩ => ⟨S32x32, .f32⟩
  | .hbm, ⟨3, _⟩ => ⟨S32, .f32⟩
  | .hbm, ⟨4, _⟩ => ⟨S96x32, .f32⟩
  | .hbm, ⟨5, _⟩ => ⟨S96x32, .f32⟩
  | .hbm, ⟨6, _⟩ => ⟨S96, .f32⟩
  | .hbm, ⟨7, _⟩ => ⟨S96, .f32⟩
  | .hbm, ⟨8, _⟩ => ⟨S16384x32, .f32⟩
  | .hbm, ⟨9, _⟩ => ⟨S32x32, .f32⟩
  | .hbm, ⟨10, _⟩ => ⟨S16384x32, .f32⟩
  | .hbm, ⟨11, _⟩ => ⟨S1x32, .f32⟩
  | .hbm, ⟨12, _⟩ => ⟨S16384x32, .f32⟩
  | .hbm, ⟨13, _⟩ => ⟨S16384x32, .f32⟩
  | .hbm, ⟨14, _⟩ => ⟨S32x96, .f32⟩
  | .hbm, ⟨15, _⟩ => ⟨S16384x96, .f32⟩
  | .hbm, ⟨16, _⟩ => ⟨S1x96, .f32⟩
  | .hbm, ⟨17, _⟩ => ⟨S16384x96, .f32⟩
  | .hbm, ⟨18, _⟩ => ⟨S16384x96, .f32⟩
  | .hbm, ⟨19, _⟩ => ⟨S32x96, .f32⟩
  | .hbm, ⟨20, _⟩ => ⟨S16384x96, .f32⟩
  | .hbm, ⟨21, _⟩ => ⟨S1x96, .f32⟩
  | .hbm, ⟨22, _⟩ => ⟨S16384x96, .f32⟩
  | .hbm, ⟨23, _⟩ => ⟨S16384x96, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S_, .f32⟩
  | .hbm, ⟨34, _⟩ => ⟨S16384x32, .f32⟩
  | .hbm, ⟨35, _⟩ => ⟨S16384x32, .f32⟩
  | .hbm, ⟨36, _⟩ => ⟨S_, .f32⟩
  | .hbm, ⟨37, _⟩ => ⟨S16384x32, .f32⟩
  | .hbm, ⟨38, _⟩ => ⟨S16384x32, .f32⟩
  | .hbm, ⟨39, _⟩ => ⟨S16384x32, .f32⟩
  | .hbm, ⟨40, _⟩ => ⟨S16384x32, .f32⟩
  | .hbm, ⟨41, _⟩ => ⟨S16384x32, .f32⟩
  | .hbm, ⟨42, _⟩ => ⟨S_, .f32⟩
  | .hbm, ⟨43, _⟩ => ⟨S16384x32, .f32⟩
  | .hbm, ⟨44, _⟩ => ⟨S16384x32, .f32⟩
  | .hbm, ⟨45, _⟩ => ⟨S_, .f32⟩
  | .hbm, ⟨46, _⟩ => ⟨S16384x32, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x32, .f32⟩
  | .hbm, ⟨56, _⟩ => ⟨S16384x32, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  transposes_S32x32_S32x32_1_0 : S32x32.Transposes [1, 0] S32x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S96x32_S32x96_1_0 : S96x32.Transposes [1, 0] S32x96
  bcast_S96_S1x96_1 : S96.BroadcastsInDim S1x96 (![1] : Fin 1 → Fin S1x96.rank)
  bcast_S1x96_S16384x96_0_1 : S1x96.BroadcastsInDim S16384x96 (![0, 1] : Fin 2 → Fin S16384x96.rank)
  slices_S16384x96_S16384x32_0_0 : S16384x96.Slices ![0, 0] S16384x32
  slices_S16384x96_S16384x32_0_32 : S16384x96.Slices ![0, 32] S16384x32
  slices_S16384x96_S16384x32_0_64 : S16384x96.Slices ![0, 64] S16384x32
  bcast_S_S16384x32 : S_.BroadcastsInDim S16384x32 (![] : Fin 0 → Fin S16384x32.rank)
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []
  dot_S16384x32_S32x96_S16384x96_1_0_0_1_n_n_wf : DotDims.WF S16384x32 S32x96 S16384x96 [1] [0] [0] [1] [] []

variable [Facts₀]

def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x96_S16384x96_1_0_0_1_n_n : DotDims S16384x32 S32x96 S16384x96 where
  lhsContracting := [1]
  rhsContracting := [0]
  lhsNonContracting := [0]
  rhsNonContracting := [1]
  lhsBatch := []
  rhsBatch := []
  wf := dot_S16384x32_S32x96_S16384x96_1_0_0_1_n_n_wf

class Facts : Prop extends Facts₀ where

variable [Facts]
-- ==== Proof.GruSpec.lean ====
/-
  The gated recurrent update of a graph's node states, as one function of the eight argument arrays, over the
  extended reals; and the one algebraic law that joins its two spellings.

  Arrays: adj [16384,16384], ns [16384,32] (the node states), Wm [32,32], bm [32], Wih [96,32], Whh [96,32],
  bih [96], bhh [96]. A 96-wide row holds three gates of width 32: reset (columns 0..31), update (32..63) and
  candidate (64..95). With gi the input-side and gh the hidden-side pre-activations of node i, feature q of the new
  state is  (1 - z) * n + z * ns(i,q),  where r = logistic (gi_r + gh_r), z = logistic (gi_z + gh_z) and
  n = tanh (gi_n + r * gh_n).

  The input-side pre-activation is spelt two ways. Chained: aggregate the neighbours' states (adj times ns), apply
  the message layer (times the transpose of Wm, plus bm), then the input layer (times the transpose of Wih, plus bih).
  Folded: multiply adj by the precomputed table ns * (Wm^T * Wih^T) and add the precomputed bias bm * Wih^T + bih.
  The two agree by distributivity and by reordering finite sums, which is valid on the reals but not at infinities:
  so the law is stated for arrays all of whose entries are real numbers.
-/
import Idealize.ShloMosaic.PureOps.Ideal
import Idealize.ShloMosaic.Lib.ValueIdx

noncomputable section

namespace Cert.Gru

open Idealize.ShloMosaic Idealize.ShloMosaic.ValueIdx

/-- A matrix and a vector of extended reals over literal extents. -/
abbrev Mat (a b : ℕ) : Type := (⟨2, ![a, b]⟩ : Shape).Idx → EReal
abbrev Row (a : ℕ) : Type := (⟨1, ![a]⟩ : Shape).Idx → EReal

/-- The reset, update and candidate columns of feature q in a 96-wide gate row. -/
def colR (q : Fin 32) : Fin 96 := ⟨q.val, by have := q.isLt; omega⟩
def colZ (q : Fin 32) : Fin 96 := ⟨32 + q.val, by have := q.isLt; omega⟩
def colN (q : Fin 32) : Fin 96 := ⟨64 + q.val, by have := q.isLt; omega⟩

/-- One feature of one node's new state from that node's two gate rows and its old value h. -/
def cell (gi gh : Fin 96 → EReal) (h : EReal) (q : Fin 32) : EReal :=
  (1 - Ideal.logistic (gi (colZ q) + gh (colZ q)))
      * Ideal.tanh (gi (colN q) + Ideal.logistic (gi (colR q) + gh (colR q)) * gh (colN q))
    + Ideal.logistic (gi (colZ q) + gh (colZ q)) * h

/-- The hidden-side pre-activation: row i of ns against row g of Whh, plus the bias. -/
def hidden (ns : Mat 16384 32) (Whh : Mat 96 32) (bhh : Row 96) (i : Fin 16384) (g : Fin 96) : EReal :=
  (∑ a : Fin 32, ns (ix2 i a) * Whh (ix2 g a)) + bhh (ix1 g)

/-- The precomputed table ns * (Wm^T * Wih^T), entry (k, g). -/
def table (ns : Mat 16384 32) (Wm : Mat 32 32) (Wih : Mat 96 32) (k : Fin 16384) (g : Fin 96) : EReal :=
  ∑ a : Fin 32, ns (ix2 k a) * (∑ b : Fin 32, Wm (ix2 b a) * Wih (ix2 g b))

/-- The precomputed bias bm * Wih^T + bih, entry g. -/
def foldedBias (bm : Row 32) (Wih : Mat 96 32) (bih : Row 96) (g : Fin 96) : EReal :=
  (∑ b : Fin 32, bm (ix1 b) * Wih (ix2 g b)) + bih (ix1 g)

/-- The input-side pre-activation, folded: adj against the table, plus the folded bias. -/
def inputFolded (adj : Mat 16384 16384) (ns : Mat 16384 32) (Wm : Mat 32 32) (bm : Row 32) (Wih : Mat 96 32) (bih : Row 96)
    (i : Fin 16384) (g : Fin 96) : EReal :=
  (∑ j : Fin 16384, adj (ix2 i j) * table ns Wm Wih j g) + foldedBias bm Wih bih g

/-- The input-side pre-activation, chained: aggregate, message layer, input layer. -/
def inputChained (adj : Mat 16384 16384) (ns : Mat 16384 32) (Wm : Mat 32 32) (bm : Row 32) (Wih : Mat 96 32) (bih : Row 96)
    (i : Fin 16384) (g : Fin 96) : EReal :=
  (∑ b : Fin 32, ((∑ a : Fin 32, (∑ j : Fin 16384, adj (ix2 i j) * ns (ix2 j a)) * Wm (ix2 b a)) + bm (ix1 b)) * Wih (ix2 g b))
    + bih (ix1 g)

/-- The new node states from the two pre-activations. -/
def newState (gi gh : Fin 16384 → Fin 96 → EReal) (ns : Mat 16384 32) : Mat 16384 32 :=
  fun i => cell (gi (i 0)) (gh (i 0)) (ns (ix2 (i 0) (i 1))) (i 1)

/-- The new state of node p, feature q. -/
theorem newState_apply (gi gh : Fin 16384 → Fin 96 → EReal) (ns : Mat 16384 32) (p : Fin 16384) (q : Fin 32) :
    newState gi gh ns (ix2 p q) = cell (gi p) (gh p) (ns (ix2 p q)) q := rfl

/-! ## The law -/

/-- The coercion of reals into the extended reals commutes with finite sums. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- Over the reals: distribute the outer factors through the inner sums and exchange the order of the three sums. -/
theorem fold_real {ι κ μ : Type} [Fintype ι] [Fintype κ] [Fintype μ]
    (A : ι → ℝ) (n : ι → κ → ℝ) (W : μ → κ → ℝ) (mb U : μ → ℝ) :
    (∑ j, A j * (∑ a, n j a * (∑ b, W b a * U b))) + (∑ b, mb b * U b)
      = ∑ b, ((∑ a, (∑ j, A j * n j a) * W b a) + mb b) * U b := by
  have e : (∑ j, A j * (∑ a, n j a * (∑ b, W b a * U b))) = ∑ b, (∑ a, (∑ j, A j * n j a) * W b a) * U b := by
    simp only [Finset.mul_sum, Finset.sum_mul]
    rw [Finset.sum_comm]
    refine (Finset.sum_congr rfl fun a _ => Finset.sum_comm).trans ?_
    rw [Finset.sum_comm]
    exact Finset.sum_congr rfl fun b _ => Finset.sum_congr rfl fun a _ => Finset.sum_congr rfl fun j _ => by ring
  simp only [add_mul, Finset.sum_add_distrib]
  rw [e]

/-- The folded and the chained input-side pre-activations agree when adj, ns, Wm, bm and Wih hold real numbers
    (the input bias bih is only ever added last, so it may be anything). -/
theorem inputFolded_eq_inputChained (adj : Mat 16384 16384) (ns : Mat 16384 32) (Wm : Mat 32 32) (bm : Row 32)
    (Wih : Mat 96 32) (bih : Row 96)
    (hadj : ∀ i, ∃ x : ℝ, adj i = x) (hns : ∀ i, ∃ x : ℝ, ns i = x) (hWm : ∀ i, ∃ x : ℝ, Wm i = x)
    (hbm : ∀ i, ∃ x : ℝ, bm i = x) (hWih : ∀ i, ∃ x : ℝ, Wih i = x) (i : Fin 16384) (g : Fin 96) :
    inputFolded adj ns Wm bm Wih bih i g = inputChained adj ns Wm bm Wih bih i g := by
  choose adjR hadjR using hadj
  choose nsR hnsR using hns
  choose WmR hWmR using hWm
  choose bmR hbmR using hbm
  choose WihR hWihR using hWih
  have key := congrArg (fun x : ℝ => (x : EReal))
    (fold_real (fun j : Fin 16384 => adjR (ix2 i j)) (fun (j : Fin 16384) (a : Fin 32) => nsR (ix2 j a))
      (fun (b : Fin 32) (a : Fin 32) => WmR (ix2 b a)) (fun b : Fin 32 => bmR (ix1 b)) (fun b : Fin 32 => WihR (ix2 g b)))
  simp only [EReal.coe_add, EReal.coe_mul, coe_sum] at key
  unfold inputFolded inputChained table foldedBias
  simp only [hadjR, hnsR, hWmR, hbmR, hWihR]
  rw [← add_assoc]
  exact congrArg (· + bih (ix1 g)) key

end Cert.Gru

end
-- ==== Proof.Finite.lean ====
/-
  From the precondition to real entries.

  The precondition says, of each float argument x, that every entry satisfies |x| < +inf, all of these joined by "and".
  On the extended reals |x| = max x (-x), and |x| < +inf excludes exactly the two infinities: so every entry of every
  argument is a real number. The distributive law that joins the two programs needs this of adj, ns, Wm, bm and Wih.
-/
import proofs.«169546_j28278064677287_2_alg».proof.Pre_finite_inputs
import Idealize.ShloMosaic.PureOps.Ideal
import Idealize.ShloMosaic.Lib.ReduceAll
import Idealize.ShloMosaic.Lib.Affine
import Idealize.ShloMosaic.Lib.IdealHost

noncomputable section

namespace Cert.Finite

open Idealize.ShloMosaic Idealize.ShloMosaic.ValueIdx Cert.Pre_finite_inputs

/-- An extended real whose absolute value is below the f32 pattern of +inf is a real number. -/
theorem real_of_abs_lt (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  have hlt : max x (-x) < ⊤ := by
    by_contra hn
    simp [Ideal.cmp, hn] at h
  have hx_top : x ≠ ⊤ := fun e => by subst e; simp at hlt
  have hx_bot : x ≠ ⊥ := fun e => by subst e; simp at hlt
  exact ⟨x.toReal, (EReal.coe_toReal hx_top hx_bot).symm⟩

/-- One entry of an array that passes the elementwise test |x| < +inf is real. -/
theorem entry_real {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    ∃ r : ℝ, x i = r := by
  rw [cmpf_apply, broadcastInDim_scalar_apply] at h
  exact real_of_abs_lt (x i) h

instance : Subsingleton S_.Idx := ⟨fun a b => funext fun d => d.elim0⟩

/-- Under the precondition the five arrays the distributive law touches hold real numbers. -/
theorem reals_of_pre [Cert.Pre_finite_inputs.Facts]
    (a0 : FVec Ideal S16384x16384 .f32) (a1 : FVec Ideal S16384x32 .f32) (a2 : FVec Ideal S32x32 .f32)
    (a3 : FVec Ideal S32 .f32) (a4 a5 : FVec Ideal S96x32 .f32) (a6 a7 : FVec Ideal S96 .f32)
    (h : fn (F := Ideal) a0 a1 a2 a3 a4 a5 a6 a7 = fun _ => 1#1) :
    (∀ i, ∃ r : ℝ, a0 i = r) ∧ (∀ i, ∃ r : ℝ, a1 i = r) ∧ (∀ i, ∃ r : ℝ, a2 i = r)
      ∧ (∀ i, ∃ r : ℝ, a3 i = r) ∧ (∀ i, ∃ r : ℝ, a4 i = r) := by
  have h0 := congrFun h ix0
  dsimp only [fn, fn_part1, fn_part2] at h0
  obtain ⟨h33, -⟩ := IntOp.andi_eq_one.mp h0
  obtain ⟨h28, -⟩ := IntOp.andi_eq_one.mp h33
  obtain ⟨h23, -⟩ := IntOp.andi_eq_one.mp h28
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨fun i => entry_real a0 _ i (Host.reduce_andi_all _ _ _ _ _ h3 i),
    fun i => entry_real a1 _ i (Host.reduce_andi_all _ _ _ _ _ h7 i),
    fun i => entry_real a2 _ i (Host.reduce_andi_all _ _ _ _ _ h12 i),
    fun i => entry_real a3 _ i (Host.reduce_andi_all _ _ _ _ _ h17 i),
    fun i => entry_real a4 _ i (Host.reduce_andi_all _ _ _ _ _ h22 i)⟩

end Cert.Finite

end
-- ==== Proof.RefIsSpec.lean ====
/-
  The reference program's result, stage by stage, is the gated recurrent update with the CHAINED input-side
  pre-activation: at node p and gate column g the reference aggregates the neighbours' states (adj times ns), applies
  the message layer and then the input layer; the hidden side is ns times the transpose of Whh plus its bias; and the
  three gates of width 32 are the column thirds of those two 96-wide rows. The reference spells the logistic function
  as 1 / (1 + exp (-x)), which is its definition on the extended reals.
-/
import proofs.«169546_j28278064677287_2_alg».proof.Proof.Gen.ReferenceIdeal.Read
import proofs.«169546_j28278064677287_2_alg».proof.Proof.GruSpec
import Idealize.ShloMosaic.Lib.IdealHost

noncomputable section

namespace Cert.ReferenceIdeal.Spec

open Cert.ReferenceIdeal Cert.ReferenceIdeal.Read Idealize.ShloMosaic Idealize.ShloMosaic.ValueIdx Cert.Gru

/-! ## The stages' index maps at a row and a column -/

theorem l0 (p : Fin 16384) (a : Fin 32) (j : Fin 16384) : lidx_main_v0 (ix2 p a) j = ix2 p j :=
  funext fun d => match d with | ⟨0, _⟩ => rfl | ⟨1, _⟩ => rfl
theorem r0 (p : Fin 16384) (a : Fin 32) (j : Fin 16384) : ridx_main_v0 (ix2 p a) j = ix2 j a :=
  funext fun d => match d with | ⟨0, _⟩ => rfl | ⟨1, _⟩ => rfl
theorem i1 (a b : Fin 32) : idx_main_v1 (ix2 a b) = ix2 b a :=
  funext fun d => match d with | ⟨0, _⟩ => rfl | ⟨1, _⟩ => rfl
theorem l2 (p : Fin 16384) (b : Fin 32) (a : Fin 32) : lidx_main_v2 (ix2 p b) a = ix2 p a :=
  funext fun d => match d with | ⟨0, _⟩ => rfl | ⟨1, _⟩ => rfl
theorem r2 (p : Fin 16384) (b : Fin 32) (a : Fin 32) : ridx_main_v2 (ix2 p b) a = ix2 a b :=
  funext fun d => match d with | ⟨0, _⟩ => rfl | ⟨1, _⟩ => rfl
theorem i3 (z : Fin 1) (b : Fin 32) : idx_main_v3 (ix2 z b) = ix1 b :=
  funext fun d => match d with | ⟨0, _⟩ => rfl
theorem i4 (p : Fin 16384) (b : Fin 32) : idx_main_v4 (ix2 p b) = ix2 (0 : Fin 1) b :=
  funext fun d => match d with | ⟨0, _⟩ => rfl | ⟨1, _⟩ => rfl
theorem i6 (b : Fin 32) (g : Fin 96) : idx_main_v6 (ix2 b g) = ix2 g b :=
  funext fun d => match d with | ⟨0, _⟩ => rfl | ⟨1, _⟩ => rfl
theorem l7 (p : Fin 16384) (g : Fin 96) (b : Fin 32) : lidx_main_v7 (ix2 p g) b = ix2 p b :=
  funext fun d => match d with | ⟨0, _⟩ => rfl | ⟨1, _⟩ => rfl
theorem r7 (p : Fin 16384) (g : Fin 96) (b : Fin 32) : ridx_main_v7 (ix2 p g) b = ix2 b g :=
  funext fun d => match d with | ⟨0, _⟩ => rfl | ⟨1, _⟩ => rfl
theorem i8 (z : Fin 1) (g : Fin 96) : idx_main_v8 (ix2 z g) = ix1 g :=
  funext fun d => match d with | ⟨0, _⟩ => rfl
theorem i9 (p : Fin 16384) (g : Fin 96) : idx_main_v9 (ix2 p g) = ix2 (0 : Fin 1) g :=
  funext fun d => match d with | ⟨0, _⟩ => rfl | ⟨1, _⟩ => rfl
theorem i11 (a : Fin 32) (g : Fin 96) : idx_main_v11 (ix2 a g) = ix2 g a :=
  funext fun d => match d with | ⟨0, _⟩ => rfl | ⟨1, _⟩ => rfl
theorem l12 (p : Fin 16384) (g : Fin 96) (a : Fin 32) : lidx_main_v12 (ix2 p g) a = ix2 p a :=
  funext fun d => match d with | ⟨0, _⟩ => rfl | ⟨1, _⟩ => rfl
theorem r12 (p : Fin 16384) (g : Fin 96) (a : Fin 32) : ridx_main_v12 (ix2 p g) a = ix2 a g :=
  funext fun d => match d with | ⟨0, _⟩ => rfl | ⟨1, _⟩ => rfl
theorem i13 (z : Fin 1) (g : Fin 96) : idx_main_v13 (ix2 z g) = ix1 g :=
  funext fun d => match d with | ⟨0, _⟩ => rfl
theorem i14 (p : Fin 16384) (g : Fin 96) : idx_main_v14 (ix2 p g) = ix2 (0 : Fin 1) g :=
  funext fun d => match d with | ⟨0, _⟩ => rfl | ⟨1, _⟩ => rfl
theorem i16 (p : Fin 16384) (q : Fin 32) : idx_main_v16 (ix2 p q) = ix2 p (colR q) :=
  funext fun d => match d with | ⟨0, _⟩ => rfl | ⟨1, _⟩ => rfl
theorem i17 (p : Fin 16384) (q : Fin 32) : idx_main_v17 (ix2 p q) = ix2 p (colZ q) :=
  funext fun d => match d with | ⟨0, _⟩ => rfl | ⟨1, _⟩ => rfl
theorem i18 (p : Fin 16384) (q : Fin 32) : idx_main_v18 (ix2 p q) = ix2 p (colN q) :=
  funext fun d => match d with | ⟨0, _⟩ => rfl | ⟨1, _⟩ => rfl
theorem i19 (p : Fin 16384) (q : Fin 32) : idx_main_v19 (ix2 p q) = ix2 p (colR q) :=
  funext fun d => match d with | ⟨0, _⟩ => rfl | ⟨1, _⟩ => rfl
theorem i20 (p : Fin 16384) (q : Fin 32) : idx_main_v20 (ix2 p q) = ix2 p (colZ q) :=
  funext fun d => match d with | ⟨0, _⟩ => rfl | ⟨1, _⟩ => rfl
theorem i21 (p : Fin 16384) (q : Fin 32) : idx_main_v21 (ix2 p q) = ix2 p (colN q) :=
  funext fun d => match d with | ⟨0, _⟩ => rfl | ⟨1, _⟩ => rfl

/-! ## The two pre-activations -/

/-- The reference's input-side pre-activation is the chained one. -/
theorem input_eq (x0 : FVec Ideal S16384x16384 .f32) (x1 : FVec Ideal S16384x32 .f32) (x2 : FVec Ideal S32x32 .f32)
    (x3 : FVec Ideal S32 .f32) (x4 : FVec Ideal S96x32 .f32) (x6 : FVec Ideal S96 .f32) (p : Fin 16384) (g : Fin 96) :
    val_main_v10 (F := Ideal) x0 x1 x2 x3 x4 x6 (ix2 p g) = inputChained x0 x1 x2 x3 x4 x6 p g := by
  rw [val_main_v10_apply, val_main_v7_apply, val_main_v9_apply, val_main_v8_apply]
  simp only [val_main_v5_apply, val_main_v2_apply, val_main_v0_apply, val_main_v1_apply, val_main_v4_apply,
    val_main_v3_apply, val_main_v6_apply, l7, r7, l2, r2, l0, r0, i1, i4, i3, i6, i9, i8]
  rfl

/-- The reference's hidden-side pre-activation. -/
theorem hidden_eq (x1 : FVec Ideal S16384x32 .f32) (x5 : FVec Ideal S96x32 .f32) (x7 : FVec Ideal S96 .f32)
    (p : Fin 16384) (g : Fin 96) :
    val_main_v15 (F := Ideal) x1 x5 x7 (ix2 p g) = hidden x1 x5 x7 p g := by
  rw [val_main_v15_apply, val_main_v12_apply, val_main_v14_apply, val_main_v13_apply]
  simp only [val_main_v11_apply, l12, r12, i11, i14, i13]
  rfl

/-! ## The update -/

/-- The logistic function written out with the host's operations, 1 / (1 + exp (-x)), is its definition on the extended
    reals (the constant one a parameter, so that its bit pattern is read once). -/
theorem logistic_spelt (a b one : EReal) (h1 : one = 1) :
    FloatOps.hostDivf (F := Ideal) (φ := .f32) one
        (FloatOps.addf (F := Ideal) (φ := .f32) one
          (FloatOps.hostUnary (F := Ideal) (φ := .f32) .exp
            (FloatOps.hostNegf (F := Ideal) (φ := .f32) (FloatOps.addf (F := Ideal) (φ := .f32) a b))))
      = Ideal.logistic (a + b) := by
  subst h1; rfl

/-- The candidate's argument with the host's operations. -/
theorem tanh_spelt (a l b : EReal) :
    FloatOps.hostUnary (F := Ideal) (φ := .f32) .tanh
        (FloatOps.addf (F := Ideal) (φ := .f32) a (FloatOps.mulf (F := Ideal) (φ := .f32) l b))
      = Ideal.tanh (a + l * b) := rfl

/-- The final combination with the host's operations. -/
theorem combine_spelt (z n h one : EReal) (h1 : one = 1) :
    FloatOps.addf (F := Ideal) (φ := .f32)
        (FloatOps.mulf (F := Ideal) (φ := .f32) (FloatOps.subf (F := Ideal) (φ := .f32) one z) n)
        (FloatOps.mulf (F := Ideal) (φ := .f32) z h)
      = (1 - z) * n + z * h := by
  subst h1; rfl

/-- The reset gate. -/
theorem reset_eq (x0 : FVec Ideal S16384x16384 .f32) (x1 : FVec Ideal S16384x32 .f32) (x2 : FVec Ideal S32x32 .f32)
    (x3 : FVec Ideal S32 .f32) (x4 x5 : FVec Ideal S96x32 .f32) (x6 x7 : FVec Ideal S96 .f32) (p : Fin 16384) (q : Fin 32) :
    val_main_v28 (F := Ideal) x0 x1 x2 x3 x4 x5 x6 x7 (ix2 p q)
      = Ideal.logistic (inputChained x0 x1 x2 x3 x4 x6 p (colR q) + hidden x1 x5 x7 p (colR q)) := by
  rw [val_main_v28_apply, val_main_v27_apply, val_main_cst_0_apply, val_main_v26_apply, val_main_v25_apply,
    val_main_cst_apply, val_main_v24_apply, val_main_v23_apply, val_main_v22_apply, val_main_v16_apply,
    val_main_v19_apply, i16, i19, input_eq, hidden_eq]
  exact logistic_spelt _ _ _ Ideal.ofBits_one_f32

/-- The update gate. -/
theorem update_eq (x0 : FVec Ideal S16384x16384 .f32) (x1 : FVec Ideal S16384x32 .f32) (x2 : FVec Ideal S32x32 .f32)
    (x3 : FVec Ideal S32 .f32) (x4 x5 : FVec Ideal S96x32 .f32) (x6 x7 : FVec Ideal S96 .f32) (p : Fin 16384) (q : Fin 32) :
    val_main_v35 (F := Ideal) x0 x1 x2 x3 x4 x5 x6 x7 (ix2 p q)
      = Ideal.logistic (inputChained x0 x1 x2 x3 x4 x6 p (colZ q) + hidden x1 x5 x7 p (colZ q)) := by
  rw [val_main_v35_apply, val_main_v34_apply, val_main_cst_2_apply, val_main_v33_apply, val_main_v32_apply,
    val_main_cst_1_apply, val_main_v31_apply, val_main_v30_apply, val_main_v29_apply, val_main_v17_apply,
    val_main_v20_apply, i17, i20, input_eq, hidden_eq]
  exact logistic_spelt _ _ _ Ideal.ofBits_one_f32

/-- The candidate state: tanh of the input side's third column block plus the reset gate times the hidden side's. -/
theorem candidate_eq (x0 : FVec Ideal S16384x16384 .f32) (x1 : FVec Ideal S16384x32 .f32) (x2 : FVec Ideal S32x32 .f32)
    (x3 : FVec Ideal S32 .f32) (x4 x5 : FVec Ideal S96x32 .f32) (x6 x7 : FVec Ideal S96 .f32) (p : Fin 16384) (q : Fin 32) :
    val_main_v38 (F := Ideal) x0 x1 x2 x3 x4 x5 x6 x7 (ix2 p q)
      = Ideal.tanh (inputChained x0 x1 x2 x3 x4 x6 p (colN q)
          + Ideal.logistic (inputChained x0 x1 x2 x3 x4 x6 p (colR q) + hidden x1 x5 x7 p (colR q)) * hidden x1 x5 x7 p (colN q)) := by
  rw [val_main_v38_apply, val_main_v37_apply, val_main_v36_apply, reset_eq, val_main_v18_apply, val_main_v21_apply,
    i18, i21, input_eq, hidden_eq]
  exact tanh_spelt _ _ _

/-- The reference's result is the update over the chained input side and the hidden side. -/
theorem result_eq (x0 : FVec Ideal S16384x16384 .f32) (x1 : FVec Ideal S16384x32 .f32) (x2 : FVec Ideal S32x32 .f32)
    (x3 : FVec Ideal S32 .f32) (x4 x5 : FVec Ideal S96x32 .f32) (x6 x7 : FVec Ideal S96 .f32) :
    val_main_v43 (F := Ideal) x0 x1 x2 x3 x4 x5 x6 x7
      = newState (inputChained x0 x1 x2 x3 x4 x6) (hidden x1 x5 x7) x1 := by
  funext i
  obtain ⟨p, q, rfl⟩ : ∃ (p : Fin 16384) (q : Fin 32), i = ix2 p q := ⟨i 0, i 1, eq_ix2 i⟩
  rw [val_main_v43_apply, val_main_v41_apply, val_main_v42_apply, val_main_v40_apply, val_main_v39_apply,
    val_main_cst_3_apply, candidate_eq, update_eq, newState_apply]
  unfold cell
  exact combine_spelt _ _ _ _ Ideal.ofBits_one_f32

end Cert.ReferenceIdeal.Spec

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.KernelHost.lean ====
/-
  What the three arrays computed on the host before the launch hold, entry by entry, in terms of the arguments.

  The table (the kernel's second operand) is ns times (Wm^T times Wih^T): entry (k, g) is the sum over a of ns(k,a)
  times the sum over b of Wm(b,a) * Wih(g,b); its rounding to bf16 is the identity on the extended reals. The bias row
  (third operand) is bm as a [1,32] row times Wih^T, plus bih as a [1,96] row. The hidden-side gate rows (fourth
  operand) are ns times Whh^T plus bhh broadcast over the rows.
-/
import proofs.«169546_j28278064677287_2_alg».proof.Proof.Gen.KernelIdeal.Frame
import proofs.«169546_j28278064677287_2_alg».proof.Proof.GruSpec
import proofs.«169546_j28278064677287_2_alg».proof.Proof.LibPlainDot
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.Gru

variable (m : (ℓ : Loc nD τ sig) → Buf (Elt Ideal) ℓ)

/-- The eight argument arrays on core c, and the three arrays the host computes from them before the launch, typed. -/
abbrev A0 (c : Dev nD) : FVec Ideal S16384x16384 .f32 := m ((c : Thread nD τ).loc main_arg0)
abbrev A1 (c : Dev nD) : FVec Ideal S16384x32 .f32 := m ((c : Thread nD τ).loc main_arg1)
abbrev A2 (c : Dev nD) : FVec Ideal S32x32 .f32 := m ((c : Thread nD τ).loc main_arg2)
abbrev A3 (c : Dev nD) : FVec Ideal S32 .f32 := m ((c : Thread nD τ).loc main_arg3)
abbrev A4 (c : Dev nD) : FVec Ideal S96x32 .f32 := m ((c : Thread nD τ).loc main_arg4)
abbrev A5 (c : Dev nD) : FVec Ideal S96x32 .f32 := m ((c : Thread nD τ).loc main_arg5)
abbrev A6 (c : Dev nD) : FVec Ideal S96 .f32 := m ((c : Thread nD τ).loc main_arg6)
abbrev A7 (c : Dev nD) : FVec Ideal S96 .f32 := m ((c : Thread nD τ).loc main_arg7)
abbrev tableArr (c : Dev nD) : FVec Ideal S16384x96 .bf16 := V m c main_v9
abbrev biasArr (c : Dev nD) : FVec Ideal S1x96 .f32 := V m c main_v7
abbrev hiddenArr (c : Dev nD) : FVec Ideal S16384x96 .f32 := V m c main_v14

/-- The table as the host operations' term of the arguments. -/
theorem table_term (c : Dev nD) : tableArr m c
    = truncf .bf16 (Host.dotGeneral (F := Ideal) dot_S16384x32_S32x96_S16384x96_1_0_0_1_n_n none (A1 m c)
        (Host.dotGeneral (F := Ideal) dot_S32x32_S32x96_S32x96_1_0_0_1_n_n none
          (transpose S32x32 [1, 0] (A2 m c) transposes_S32x32_S32x32_1_0)
          (transpose S32x96 [1, 0] (A4 m c) transposes_S96x32_S32x96_1_0)))
        bitsLt_bf16_f32 := by
  dsimp only [tableArr, V, hostOps0]; after_results <;> rfl

/-- The bias row as the host operations' term of the arguments. -/
theorem bias_term (c : Dev nD) : biasArr m c
    = addf (Host.dotGeneral (F := Ideal) dot_S1x32_S32x96_S1x96_1_0_0_1_n_n none
          (shapeCast S1x32 (A3 m c) shapeCasts_S32_S1x32)
          (transpose S32x96 [1, 0] (A4 m c) transposes_S96x32_S32x96_1_0))
        (shapeCast S1x96 (A6 m c) shapeCasts_S96_S1x96) := by
  dsimp only [biasArr, V, hostOps0]; after_results <;> rfl

/-- The hidden-side gate rows as the host operations' term of the arguments. -/
theorem hidden_term (c : Dev nD) : hiddenArr m c
    = addf (Host.dotGeneral (F := Ideal) dot_S16384x32_S32x96_S16384x96_1_0_0_1_n_n none (A1 m c)
          (transpose S32x96 [1, 0] (A5 m c) transposes_S96x32_S32x96_1_0))
        (broadcastInDim S16384x96 ![0, 1] bcast_S1x96_S16384x96_0_1 (shapeCast S1x96 (A7 m c) shapeCasts_S96_S1x96)) := by
  dsimp only [hiddenArr, V, hostOps0]; after_results <;> rfl

/-- The three transposes read at an index, in the programs' spelling. -/
theorem wm_t (c : Dev nD) (a b : Fin 32) :
    transpose S32x32 [1, 0] (A2 m c) transposes_S32x32_S32x32_1_0 (ix2 a b) = A2 m c (ix2 b a) :=
  transpose_ix2_apply (A2 m c) transposes_S32x32_S32x32_1_0 a b
theorem wih_t (c : Dev nD) (b : Fin 32) (g : Fin 96) :
    transpose S32x96 [1, 0] (A4 m c) transposes_S96x32_S32x96_1_0 (ix2 b g) = A4 m c (ix2 g b) :=
  transpose_ix2_apply (A4 m c) transposes_S96x32_S32x96_1_0 b g
theorem whh_t (c : Dev nD) (a : Fin 32) (g : Fin 96) :
    transpose S32x96 [1, 0] (A5 m c) transposes_S96x32_S32x96_1_0 (ix2 a g) = A5 m c (ix2 g a) :=
  transpose_ix2_apply (A5 m c) transposes_S96x32_S32x96_1_0 a g

/-- Entry (k, g) of the table. -/
theorem table_apply (c : Dev nD) (k : Fin 16384) (g : Fin 96) :
    tableArr m c (ix2 k g) = table (A1 m c) (A2 m c) (A4 m c) k g := by
  rw [table_term, truncf_apply, Cert.PlainDot.hostDot_apply dot_S16384x32_S32x96_S16384x96_1_0_0_1_n_n rfl]
  unfold table
  refine Finset.sum_congr rfl fun a _ => congrArg (A1 m c (ix2 k a) * ·) ?_
  rw [Cert.PlainDot.hostDot_apply dot_S32x32_S32x96_S32x96_1_0_0_1_n_n rfl]
  refine Finset.sum_congr rfl fun b _ => ?_
  exact (congrArg (· * _) (wm_t m c a b)).trans (congrArg (A2 m c (ix2 b a) * ·) (wih_t m c b g))

/-- Entry g of the bias row. -/
theorem bias_apply (c : Dev nD) (g : Fin 96) :
    biasArr m c (ix2 (0 : Fin 1) g) = foldedBias (A3 m c) (A4 m c) (A6 m c) g := by
  rw [bias_term, addf_apply, Cert.PlainDot.hostDot_apply dot_S1x32_S32x96_S1x96_1_0_0_1_n_n rfl, shapeCast_a_1a_apply]
  unfold foldedBias
  refine congrArg (· + A6 m c (ix1 g)) (Finset.sum_congr rfl fun b _ => ?_)
  rw [shapeCast_a_1a_apply]
  exact congrArg (A3 m c (ix1 b) * ·) (wih_t m c b g)

/-- Entry (i, g) of the hidden-side gate rows. -/
theorem hidden_apply (c : Dev nD) (i : Fin 16384) (g : Fin 96) :
    hiddenArr m c (ix2 i g) = hidden (A1 m c) (A5 m c) (A7 m c) i g := by
  rw [hidden_term, addf_apply, Cert.PlainDot.hostDot_apply dot_S16384x32_S32x96_S16384x96_1_0_0_1_n_n rfl,
    broadcastInDim_apply _ bcast_S1x96_S16384x96_0_1 _ (ix2 i g) (ix2 (0 : Fin 1) g) (fun a => match a with
      | ⟨0, _⟩ => by show 0 = if (1 : Nat) = 1 then 0 else i.val; rw [if_pos rfl]
      | ⟨1, _⟩ => by show g.val = if (96 : Nat) = 1 then 0 else g.val; rw [if_neg (by decide)]),
    shapeCast_a_1a_apply]
  unfold Cert.Gru.hidden
  refine congrArg (· + A7 m c (ix1 g)) (Finset.sum_congr rfl fun a _ => ?_)
  exact congrArg (A1 m c (ix2 i a) * ·) (whh_t m c a g)

end Cert.KernelIdeal.HostSide

end
-- ==== Proof.KernelBody.lean ====
/-
  What the kernel body stores for one block of 128 nodes, read at node r of the block and feature q.

  The body forms the block's input-side gate rows as (the block of adj, 128 rows of all 16384 columns) times
  (the whole [16384,96] table) plus the [1,96] bias row broadcast over the 128 rows; takes the block's hidden-side gate
  rows as loaded; cuts both into their three column thirds; and applies the gated update against the block of old
  states. Rounding the adj block to bf16 on the way into the matrix unit is the identity on the extended reals.
-/
import proofs.«169546_j28278064677287_2_alg».proof.Proof.Gen.KernelIdeal.Skeleton
import proofs.«169546_j28278064677287_2_alg».proof.Proof.GruSpec
import proofs.«169546_j28278064677287_2_alg».proof.Proof.LibPlainDot
import Idealize.ShloMosaic.Lib.ValueLayout
import Idealize.ShloMosaic.Lib.IdealHost

noncomputable section

namespace Cert.KernelIdeal.Body

open Cert.KernelIdeal Cert.KernelIdeal.Gen Idealize.ShloMosaic Idealize.ShloMosaic.ValueIdx Cert.Gru

/-- The gated update of a block from its two 96-wide gate-row arrays A (input side) and B (hidden side) and its
    old states h, as the body spells it. -/
def blockUpdate (A B : FVec Ideal S128x96 .f32) (h : FVec Ideal S128x32 .f32) : FVec Ideal S128x32 .f32 :=
  addf
    (mulf
      (subf (broadcast S128x32 (Scalar.ofBits (F := Ideal) .f32 0x3F800000#32))
        (logistic (addf (extractStridedSlice S128x32 ![0, 32] A slices_S128x96_o0_32_S128x32)
          (extractStridedSlice S128x32 ![0, 32] B slices_S128x96_o0_32_S128x32))))
      (tanh (addf (extractStridedSlice S128x32 ![0, 64] A slices_S128x96_o0_64_S128x32)
        (mulf (logistic (addf (extractStridedSlice S128x32 ![0, 0] A slices_S128x96_o0_0_S128x32)
            (extractStridedSlice S128x32 ![0, 0] B slices_S128x96_o0_0_S128x32)))
          (extractStridedSlice S128x32 ![0, 64] B slices_S128x96_o0_64_S128x32)))))
    (mulf
      (logistic (addf (extractStridedSlice S128x32 ![0, 32] A slices_S128x96_o0_32_S128x32)
        (extractStridedSlice S128x32 ![0, 32] B slices_S128x96_o0_32_S128x32)))
      h)

/-- The body's stored value is that update of its two gate-row arrays. -/
theorem payload_eq (x0 : FVec Ideal S128x16384 .f32) (x1 : FVec Ideal S16384x96 .bf16) (x2 : FVec Ideal S1x96 .f32)
    (x3 : FVec Ideal S128x96 .f32) (x4 : FVec Ideal S128x32 .f32) :
    k0_pay1 (F := Ideal) x0 x1 x2 x3 x4
      = blockUpdate
          (addf (matmul dot_S128x16384_S16384x96_S128x96_1_0_0_1_n_n none (truncf .bf16 x0 bitsLt_bf16_f32)
              (shapeCast S16384x96 x1 shapeCasts_S16384x96_S16384x96) (constant S128x96 .f32 0x00000000#32))
            (broadcastTo S128x96 (shapeCast S1x96 x2 shapeCasts_S1x96_S1x96) broadcasts_S1x96_S128x96))
          (shapeCast S128x96 x3 shapeCasts_S128x96_S128x96) x4 := rfl

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

/-- The update at (r, q) is the cell of row r of the two gate-row arrays. -/
theorem blockUpdate_apply (A B : FVec Ideal S128x96 .f32) (h : FVec Ideal S128x32 .f32) (r : Fin 128) (q : Fin 32) :
    blockUpdate A B h (ix2 r q) = cell (fun g => A (ix2 r g)) (fun g => B (ix2 r g)) (h (ix2 r q)) q := by
  have eR : ∀ X : FVec Ideal S128x96 .f32,
      extractStridedSlice S128x32 ![0, 0] X slices_S128x96_o0_0_S128x32 (ix2 r q) = X (ix2 r (colR q)) :=
    fun X => slice2_axis1_apply 0 X slices_S128x96_o0_0_S128x32 r q (colR q) (Nat.zero_add _).symm
  have eZ : ∀ X : FVec Ideal S128x96 .f32,
      extractStridedSlice S128x32 ![0, 32] X slices_S128x96_o0_32_S128x32 (ix2 r q) = X (ix2 r (colZ q)) :=
    fun X => slice2_axis1_apply 32 X slices_S128x96_o0_32_S128x32 r q (colZ q) rfl
  have eN : ∀ X : FVec Ideal S128x96 .f32,
      extractStridedSlice S128x32 ![0, 64] X slices_S128x96_o0_64_S128x32 (ix2 r q) = X (ix2 r (colN q)) :=
    fun X => slice2_axis1_apply 64 X slices_S128x96_o0_64_S128x32 r q (colN q) rfl
  unfold blockUpdate
  simp only [addf_apply, mulf_apply, subf_apply, broadcast_apply, logistic_at, tanh_at, eR, eZ, eN]
  show (Ideal.ofBits .f32 0x3F800000#32 - _) * _ + _ = _
  rw [Ideal.ofBits_one_f32]
  rfl

/-- Row r, column g of the block's input-side gate rows: the row of the adj block against the table's column, plus
    the bias row's entry. -/
theorem gates_in (x0 : FVec Ideal S128x16384 .f32) (x1 : FVec Ideal S16384x96 .bf16) (x2 : FVec Ideal S1x96 .f32)
    (r : Fin 128) (g : Fin 96) :
    addf (matmul dot_S128x16384_S16384x96_S128x96_1_0_0_1_n_n none (truncf .bf16 x0 bitsLt_bf16_f32) x1
          (constant S128x96 .f32 0x00000000#32))
        (broadcastTo S128x96 x2 broadcasts_S1x96_S128x96) (ix2 r g)
      = (∑ k : Fin 16384, x0 (ix2 r k) * x1 (ix2 k g)) + x2 (ix2 (0 : Fin 1) g) := by
  rw [addf_apply, Cert.PlainDot.matmul_zero_apply dot_S128x16384_S16384x96_S128x96_1_0_0_1_n_n rfl, broadcastTo_1b_ab_apply]
  rfl

/-- The body's stored value at node r of the block and feature q. -/
theorem payload_apply (x0 : FVec Ideal S128x16384 .f32) (x1 : FVec Ideal S16384x96 .bf16) (x2 : FVec Ideal S1x96 .f32)
    (x3 : FVec Ideal S128x96 .f32) (x4 : FVec Ideal S128x32 .f32) (r : Fin 128) (q : Fin 32) :
    k0_pay1 (F := Ideal) x0 x1 x2 x3 x4 (ix2 r q)
      = cell (fun g => (∑ k : Fin 16384, x0 (ix2 r k) * x1 (ix2 k g)) + x2 (ix2 (0 : Fin 1) g))
          (fun g => x3 (ix2 r g)) (x4 (ix2 r q)) q := by
  rw [payload_eq, blockUpdate_apply]
  simp only [shapeCast_self, gates_in]

end Cert.KernelIdeal.Body

end
-- ==== Proof.KernelValue.lean ====
/-
  The kernel's result array as one function of the arguments.

  Grid point t handles nodes 128 t .. 128 t + 127: it is given rows 128 t .. of adj (all columns), of the hidden-side gate
  rows and of the old states, and the whole table and the whole bias row (their block index is 0 at every point); it
  writes back rows 128 t .. of the result. So what point t writes back is block t of ONE function of the arguments:
  the gated update with the FOLDED input side. The 128 blocks tile the [16384,32] result (row i lies in block i / 128),
  hence the array after the run is that function everywhere.
-/
import proofs.«169546_j28278064677287_2_alg».proof.Proof.Gen.KernelIdeal.Value
import proofs.«169546_j28278064677287_2_alg».proof.Proof.KernelHost
import proofs.«169546_j28278064677287_2_alg».proof.Proof.KernelBody
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Gru Cert.KernelIdeal.HostSide

variable (m : (ℓ : Loc nD τ sig) → Buf (Elt Ideal) ℓ) (ρ : Dev nD → PrngReg)

theorem hz : (![0, 0] : Fin 2 → Nat) = fun _ => 0 := funext fun a => by fin_cases a <;> rfl

/-- The result array: the gated update of the node states with the folded input side. -/
abbrev result (c : Dev nD) : S16384x32.Idx → EReal :=
  newState (inputFolded (A0 m c) (A1 m c) (A2 m c) (A3 m c) (A4 m c) (A6 m c))
    (hidden (A1 m c) (A5 m c) (A7 m c)) (A1 m c)

/-- The printed index maps over the grid: the row-blocked windows sit at block row t, the table and the bias row at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

/-- Row r of the adj block at point t is row 128 t + r of adj. -/
theorem adj_block (c : Dev nD) (t : Fin cfg0.N) (r : Fin 128) (p : Fin 16384) (hp : p.val = t.val * 128 + r.val) (k : Fin 16384) :
    (iblk m c 0 t : FVec Ideal S128x16384 .f32) (ix2 r k) = A0 m c (ix2 p k) := by
  obtain ⟨f0, f1, -⟩ := idx_facts t
  unfold iblk
  rw [View.read_apply]
  show V m c main_arg0 (((cfg0.win 0).blk t).view.emb (ix2 r k)) = _
  rw [V_main_arg0]
  refine congrArg (A0 m c) (funext fun a => Fin.ext ?_)
  match a with
  | ⟨0, _⟩ => show win0_0.index t (0 : Fin 2) * 128 + 1 * r.val = p.val; rw [f0, hp]; omega
  | ⟨1, _⟩ => show win0_0.index t (1 : Fin 2) * 16384 + 1 * k.val = k.val; rw [f1]; omega

/-- The table's block at any point is the whole table. -/
theorem table_block (c : Dev nD) (t : Fin cfg0.N) (k : Fin 16384) (g : Fin 96) :
    (iblk m c 1 t : FVec Ideal S16384x96 .bf16) (ix2 k g) = tableArr m c (ix2 k g) := by
  obtain ⟨-, -, f0, f1, -⟩ := idx_facts t
  unfold iblk
  rw [View.read_apply]
  show V m c main_v9 (((cfg0.win 1).blk t).view.emb (ix2 k g)) = _
  refine congrArg (tableArr m c) (funext fun a => Fin.ext ?_)
  match a with
  | ⟨0, _⟩ => show win0_1.index t (0 : Fin 2) * 16384 + 1 * k.val = k.val; rw [f0]; omega
  | ⟨1, _⟩ => show win0_1.index t (1 : Fin 2) * 96 + 1 * g.val = g.val; rw [f1]; omega

/-- The bias row's block at any point is the whole bias row. -/
theorem bias_block (c : Dev nD) (t : Fin cfg0.N) (g : Fin 96) :
    (iblk m c 2 t : FVec Ideal S1x96 .f32) (ix2 (0 : Fin 1) g) = biasArr m c (ix2 (0 : Fin 1) g) := by
  obtain ⟨-, -, -, -, f0, f1, -⟩ := idx_facts t
  unfold iblk
  rw [View.read_apply]
  show V m c main_v7 (((cfg0.win 2).blk t).view.emb (ix2 (0 : Fin 1) g)) = _
  refine congrArg (biasArr m c) (funext fun a => Fin.ext ?_)
  match a with
  | ⟨0, _⟩ => show win0_2.index t (0 : Fin 2) * 1 + 1 * 0 = 0; rw [f0]
  | ⟨1, _⟩ => show win0_2.index t (1 : Fin 2) * 96 + 1 * g.val = g.val; rw [f1]; omega

/-- Row r of the hidden-side block at point t is row 128 t + r of the hidden-side gate rows. -/
theorem hidden_block (c : Dev nD) (t : Fin cfg0.N) (r : Fin 128) (p : Fin 16384) (hp : p.val = t.val * 128 + r.val) (g : Fin 96) :
    (iblk m c 3 t : FVec Ideal S128x96 .f32) (ix2 r g) = hiddenArr m c (ix2 p g) := by
  obtain ⟨-, -, -, -, -, -, f0, f1, -⟩ := idx_facts t
  unfold iblk
  rw [View.read_apply]
  show V m c main_v14 (((cfg0.win 3).blk t).view.emb (ix2 r g)) = _
  refine congrArg (hiddenArr m c) (funext fun a => Fin.ext ?_)
  match a with
  | ⟨0, _⟩ => show win0_3.index t (0 : Fin 2) * 128 + 1 * r.val = p.val; rw [f0, hp]; omega
  | ⟨1, _⟩ => show win0_3.index t (1 : Fin 2) * 96 + 1 * g.val = g.val; rw [f1]; omega

/-- Row r of the old-state block at point t is row 128 t + r of ns. -/
theorem state_block (c : Dev nD) (t : Fin cfg0.N) (r : Fin 128) (p : Fin 16384) (hp : p.val = t.val * 128 + r.val) (q : Fin 32) :
    (iblk m c 4 t : FVec Ideal S128x32 .f32) (ix2 r q) = A1 m c (ix2 p q) := by
  obtain ⟨-, -, -, -, -, -, -, -, f0, f1, -⟩ := idx_facts t
  unfold iblk
  rw [View.read_apply]
  show V m c main_arg1 (((cfg0.win 4).blk t).view.emb (ix2 r q)) = _
  rw [V_main_arg1]
  refine congrArg (A1 m c) (funext fun a => Fin.ext ?_)
  match a with
  | ⟨0, _⟩ => show win0_4.index t (0 : Fin 2) * 128 + 1 * r.val = p.val; rw [f0, hp]; omega
  | ⟨1, _⟩ => show win0_4.index t (1 : Fin 2) * 32 + 1 * q.val = q.val; rw [f1]; omega

/-! ## One written entry -/

/-- For blocks that are rows n * 128 .. of their arrays (the table and the bias row whole), the body's stored value at
    block index j is the folded update at the array index i that j lands on. Stated over plain arrays and blocks. -/
theorem point (adj : Mat 16384 16384) (ns : Mat 16384 32) (Wm : Mat 32 32) (bm : Row 32) (Wih Whh : Mat 96 32) (bih bhh : Row 96)
    (T : S16384x96.Idx → EReal) (cb : S1x96.Idx → EReal) (H : S16384x96.Idx → EReal)
    (hT : ∀ (k : Fin 16384) (g : Fin 96), T (ix2 k g) = table ns Wm Wih k g)
    (hc : ∀ g : Fin 96, cb (ix2 (0 : Fin 1) g) = foldedBias bm Wih bih g)
    (hH : ∀ (i : Fin 16384) (g : Fin 96), H (ix2 i g) = hidden ns Whh bhh i g)
    (x0 : FVec Ideal S128x16384 .f32) (x1 : FVec Ideal S16384x96 .bf16) (x2 : FVec Ideal S1x96 .f32)
    (x3 : FVec Ideal S128x96 .f32) (x4 : FVec Ideal S128x32 .f32)
    (j : S128x32.Idx) (i : S16384x32.Idx) (n : ℕ) (hi0 : (i 0).val = n * 128 + (j 0).val) (hi1 : (i 1).val = (j 1).val)
    (h0 : ∀ (r : Fin 128) (p : Fin 16384), p.val = n * 128 + r.val → ∀ k : Fin 16384, x0 (ix2 r k) = adj (ix2 p k))
    (h1 : ∀ (k : Fin 16384) (g : Fin 96), x1 (ix2 k g) = T (ix2 k g))
    (h2 : ∀ g : Fin 96, x2 (ix2 (0 : Fin 1) g) = cb (ix2 (0 : Fin 1) g))
    (h3 : ∀ (r : Fin 128) (p : Fin 16384), p.val = n * 128 + r.val → ∀ g : Fin 96, x3 (ix2 r g) = H (ix2 p g))
    (h4 : ∀ (r : Fin 128) (p : Fin 16384), p.val = n * 128 + r.val → ∀ q : Fin 32, x4 (ix2 r q) = ns (ix2 p q)) :
    k0_pay1 (F := Ideal) x0 x1 x2 x3 x4 j = newState (inputFolded adj ns Wm bm Wih bih) (hidden ns Whh bhh) ns i := by
  obtain ⟨r, q, rfl⟩ : ∃ (r : Fin 128) (q : Fin 32), j = ix2 r q := ⟨j 0, j 1, eq_ix2 j⟩
  obtain ⟨p, q', rfl⟩ : ∃ (p : Fin 16384) (q' : Fin 32), i = ix2 p q' := ⟨i 0, i 1, eq_ix2 i⟩
  have hp : p.val = n * 128 + r.val := hi0
  obtain rfl : q' = q := Fin.ext hi1
  have e1 : (fun g => (∑ k : Fin 16384, x0 (ix2 r k) * x1 (ix2 k g)) + x2 (ix2 (0 : Fin 1) g))
      = inputFolded adj ns Wm bm Wih bih p := funext fun g => by
    show _ = inputFolded adj ns Wm bm Wih bih p g
    unfold inputFolded
    simp only [h0 r p hp, h1, h2, hT, hc]
  have e2 : (fun g => x3 (ix2 r g)) = hidden ns Whh bhh p := funext fun g => by rw [h3 r p hp, hH]
  rw [Cert.KernelIdeal.Body.payload_apply, newState_apply, e1, e2, h4 r p hp]

/-! ## Blocks, cover, array -/

/-- What point t writes back is block t of the result function. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S128x16384) hz, View.ld_unit_zero (S := S16384x96) hz, View.ld_unit_zero (S := S1x96) hz,
    View.ld_unit_zero (S := S128x96) hz, View.ld_unit_zero (S := S128x32) hz]
  obtain ⟨-, -, -, -, -, -, -, -, -, -, f0, f1⟩ := idx_facts t
  funext j
  show k0_pay1 (F := Ideal) (iblk m c 0 t) (iblk m c 1 t) (iblk m c 2 t) (iblk m c 3 t) (iblk m c 4 t) j
    = result m c (((cfg0.win 5).blk t).view.emb j)
  refine point (A0 m c) (A1 m c) (A2 m c) (A3 m c) (A4 m c) (A5 m c) (A6 m c) (A7 m c)
    (tableArr m c) (biasArr m c) (hiddenArr m c)
    (Cert.KernelIdeal.HostSide.table_apply m c) (Cert.KernelIdeal.HostSide.bias_apply m c) (Cert.KernelIdeal.HostSide.hidden_apply m c)
    (iblk m c 0 t) (iblk m c 1 t) (iblk m c 2 t) (iblk m c 3 t) (iblk m c 4 t) j (((cfg0.win 5).blk t).view.emb j) t.val
    ?_ ?_ (fun r p hp k => adj_block m c t r p hp k) (fun k g => table_block m c t k g) (fun g => bias_block m c t g)
    (fun r p hp g => hidden_block m c t r p hp g) (fun r p hp q => state_block m c t r p hp q)
  · show win0_5.index t (0 : Fin 2) * 128 + 1 * (j 0).val = t.val * 128 + (j 0).val
    rw [f0]; omega
  · show win0_5.index t (1 : Fin 2) * 32 + 1 * (j 1).val = (j 1).val
    rw [f1]; omega

/-- An index of the result lies in point t's block iff each coordinate is in the block's range on its axis. -/
theorem mem_blk (t : Fin cfg0.N) (i : S16384x32.Idx) :
    i ∈ ((cfg0.win 5).blk t).view.set
      ↔ ∀ a : Fin 2, win0_5.index t a * S128x32.size a ≤ (i a).val ∧ (i a).val < win0_5.index t a * S128x32.size a + S128x32.size a := by
  show i ∈ ((View.whole main_v15).slice (win0_5.rect t)).set ↔ _
  rw [View.set_slice_whole, Rect.mem_set_unit]
  exact Iff.rfl

/-- Every index of the result is in some point's block: row i in the block of point i / 128. -/
theorem cover (i : S16384x32.Idx) : ∃ t : Fin cfg0.N, (cfg0.win 5).flush t = true ∧ i ∈ ((cfg0.win 5).blk t).view.set := by
  have hi0 : (i 0).val < 16384 := (i 0).isLt
  have hi1 : (i 1).val < 32 := (i 1).isLt
  have hN : grid0.N = 128 := N_0
  have ht : (i 0).val / 128 < cfg0.N := by show (i 0).val / 128 < grid0.N; rw [hN]; omega
  obtain ⟨-, -, -, -, -, -, -, -, -, -, f0, f1⟩ := idx_facts ⟨(i 0).val / 128, ht⟩
  refine ⟨⟨(i 0).val / 128, ht⟩, flush0_5 _, ?_⟩
  rw [mem_blk]
  intro a
  match a with
  | ⟨0, _⟩ =>
    show win0_5.index ⟨(i 0).val / 128, ht⟩ (0 : Fin 2) * 128 ≤ (i 0).val
      ∧ (i 0).val < win0_5.index ⟨(i 0).val / 128, ht⟩ (0 : Fin 2) * 128 + 128
    rw [f0]; show (i 0).val / 128 * 128 ≤ (i 0).val ∧ (i 0).val < (i 0).val / 128 * 128 + 128; omega
  | ⟨1, _⟩ =>
    show win0_5.index ⟨(i 0).val / 128, ht⟩ (1 : Fin 2) * 32 ≤ (i 1).val
      ∧ (i 1).val < win0_5.index ⟨(i 0).val / 128, ht⟩ (1 : Fin 2) * 32 + 32
    rw [f1]; omega

/-- The result array after the run is the result function. -/
theorem final (c : Dev nD) : (dats m 0 c).arrAt 5 cfg0.N = result m c :=
  (dats m 0 c).arrAt_eq_of_cover 5 (result m c) (fun t _ => flushed_eq m c t) cover

/-- The kernel's run, read: the result array at the folded update of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Whole

end
-- ==== Proof.lean ====
/-
  The certificate of a message-passing step with a gated recurrent node update over 16384 nodes of 32 features.

  Both programs compute, for node i and feature q, (1 - z) * n + z * ns(i,q) with r = logistic (gi_r + gh_r),
  z = logistic (gi_z + gh_z), n = tanh (gi_n + r * gh_n), where gh = ns * Whh^T + bhh. They differ in the input side gi.
  The reference chains three products, ((adj * ns) * Wm^T + bm) * Wih^T + bih. The kernel multiplies adj, 128 rows at a
  time, by the table ns * (Wm^T * Wih^T) precomputed on the host, and adds the precomputed bias bm * Wih^T + bih. On the
  extended reals the two agree by distributivity and by exchanging finite sums, which needs the entries of adj, ns, Wm,
  bm and Wih to be real numbers: this is where the precondition (all inputs finite) is used. The reference spells the
  logistic function as 1 / (1 + exp (-x)), its definition; rounding to bf16 is the identity on the extended reals.

  The frames of the two kernel programs and the kernel's blockwise run, the reference's run and its stage-by-stage
  reading are imported generated modules; the rest is in the modules under Proof/.
-/
import proofs.«169546_j28278064677287_2_alg».proof.Defs
import proofs.«169546_j28278064677287_2_alg».proof.Proof.Gen.Kernel
import proofs.«169546_j28278064677287_2_alg».proof.Proof.Gen.Kernel.Frame
import proofs.«169546_j28278064677287_2_alg».proof.Proof.Gen.KernelIdeal
import proofs.«169546_j28278064677287_2_alg».proof.Proof.Gen.KernelIdeal.Frame
import proofs.«169546_j28278064677287_2_alg».proof.Proof.Gen.KernelIdeal.Value
import proofs.«169546_j28278064677287_2_alg».proof.Proof.Gen.ReferenceIdeal
import proofs.«169546_j28278064677287_2_alg».proof.Proof.Gen.ReferenceIdeal.Run
import proofs.«169546_j28278064677287_2_alg».proof.Proof.Gen.ReferenceIdeal.Read
import proofs.«169546_j28278064677287_2_alg».proof.Proof.Gen.Pre_finite_inputs
import proofs.«169546_j28278064677287_2_alg».proof.Proof.GruSpec
import proofs.«169546_j28278064677287_2_alg».proof.Proof.Finite
import proofs.«169546_j28278064677287_2_alg».proof.Proof.RefIsSpec
import proofs.«169546_j28278064677287_2_alg».proof.Proof.KernelValue

noncomputable section

namespace Cert.Proof

open Idealize.ShloMosaic Idealize.ShloMosaic.TcCoe Idealize.SL.Sem Cert.Gru

/-- The printed kernel's frame, generated whole. -/
theorem frame_kernel : Cert.frame_Kernel := fun m ρ _ => Cert.Kernel.Gen.frame m ρ

/-- The idealized kernel's frame, generated whole. -/
theorem frame_kernelIdeal : Cert.frame_KernelIdeal := fun m ρ _ => Cert.KernelIdeal.Gen.frame m ρ

/-- The reference's frame: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in the kernel. -/
theorem preserves : Cert.preserves_Kernel_KernelIdeal := trivial

/-- The kernel's result array ends at the update with the folded input side, the reference's at the update with the
    chained input side, of arguments that agree and are finite: one function. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.Spec.result_eq]
  obtain ⟨e0, e1, e2, e3, e4, e5, e6, e7⟩ := hagree c
  rw [e0, e1, e2, e3, e4, e5, e6, e7]
  obtain ⟨r0, r1, r2, r3, r4⟩ := Cert.Finite.reals_of_pre _ _ _ _ _ _ _ _ (hpre c)
  show newState _ _ _ = newState _ _ _
  refine congrArg (fun gi => newState gi _ _) (funext fun i => funext fun g => ?_)
  exact (inputFolded_eq_inputChained _ _ _ _ _ _ r0 r1 r2 r3 r4 i g).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
